-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S8000000 : Shape := ⟨1, ![8000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S8000000 : S_.BroadcastsInDim S8000000 (![] : Fin 0 → Fin S8000000.rank)
  reducesTo_S8000000_S_d0 : S8000000.ReducesTo [0] S_
  reducesTo_S_S_d : S_.ReducesTo [] S_

variable [Facts]

def fn_part1 {F : FTy → Type} [FloatOps F] (main_arg4 : FVec F S8000000 .f32) (main_arg7 : FVec F S_ .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S8000000 .f32 := Host.absf main_arg4
  let main_cst_6 : FVec F S_ .f32 := constant S_ .f32 0x7F800000#32
  let main_v20 : FVec F S8000000 .f32 := broadcastInDim S8000000 ![] bcast_S_S8000000 main_cst_6
  let main_v21 : IVec S8000000 1 := cmpf .olt main_v19 main_v20
  let main_c_7 : IVec S_ 1 := constantI S_ 1 1#1
  let main_v22 : IVec S_ 1 := (fun x v => Host.reduce IntOp.andi x v reducesTo_S8000000_S_d0 h_S_) main_v21 main_c_7
  let main_v23 : IVec S_ 1 := andi main_v18 main_v22
  let main_v24 : FVec F S_ .f32 := Host.absf main_arg7
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S1000000 .f32) (main_arg1 : FVec F S1000000 .f32) (main_arg2 : FVec F S1000000 .f32) (main_arg3 : FVec F S1000000 .f32) (main_arg4 : FVec F S8000000 .f32) (main_arg5 : IVec S8000000 32) (main_arg6 : IVec S8000000 32) (main_arg7 : FVec F S_ .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg7 main_v13 main_v16
-- ==== Kernel.lean ====
abbrev S1000000 : Shape := ⟨1, ![1000000]⟩
abbrev S8000000 : Shape := ⟨1, ![8000000]⟩
abbrev S_ : Shape := ⟨0, ![]⟩
abbrev S8000000x1 : Shape := ⟨2, ![8000000, 1]⟩
abbrev S8192000 : Shape := ⟨1, ![8192000]⟩
abbrev S64000x128 : Shape := ⟨2, ![64000, 128]⟩
abbrev S8000x128 : Shape := ⟨2, ![8000, 128]⟩

abbrev nBuf : Space → Nat
  | .hbm => 65
  | .vmem => 10
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S8000000, .f32⟩
  | .hbm, ⟨5, _⟩ => ⟨S8000000, .i32⟩
  | .hbm, ⟨6, _⟩ => ⟨S8000000, .i32⟩
  | .hbm, ⟨7, _⟩ => ⟨S_, .f32⟩
  | .hbm, ⟨8, _⟩ => ⟨S1000000, .f32⟩
  | .hbm, ⟨9, _⟩ => ⟨S_, .f32⟩
  | .hbm, ⟨10, _⟩ => ⟨S1000000, .f32⟩
  | .hbm, ⟨11, _⟩ => ⟨S1000000, .f32⟩
  | .hbm, ⟨12, _⟩ => ⟨S1000000, .f32⟩
  | .hbm, ⟨13, _⟩ => ⟨S_, .i32⟩
  | .hbm, ⟨14, _⟩ => ⟨S8000000, .i32⟩
  | .hbm, ⟨15, _⟩ => ⟨S8000000, .i1⟩
  | .hbm, ⟨16, _⟩ => ⟨S_, .i32⟩
  | .hbm, ⟨17, _⟩ => ⟨S8000000, .i32⟩
  | .hbm, ⟨18, _⟩ => ⟨S8000000, .i32⟩
  | .hbm, ⟨19, _⟩ => ⟨S8000000, .i32⟩
  | .hbm, ⟨20, _⟩ => ⟨S8000000x1, .i32⟩
  | .hbm, ⟨21, _⟩ => ⟨S8000000, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i32⟩
  | .hbm, ⟨37, _⟩ => ⟨S8000000, .i32⟩
  | .hbm, ⟨38, _⟩ => ⟨S8000000x1, .i32⟩
  | .hbm, ⟨39, _⟩ => ⟨S8000000, .f32⟩
  | .hbm, ⟨40, _⟩ => ⟨S_, .i32⟩
  | .hbm, ⟨41, _⟩ => ⟨S_, .f32⟩
  | .hbm, ⟨42, _⟩ => ⟨S8192000, .f32⟩
  | .hbm, ⟨43, _⟩ => ⟨S64000x128, .f32⟩
  | .hbm, ⟨44, _⟩ => ⟨S_, .i32⟩
  | .hbm, ⟨45, _⟩ => ⟨S_, .f32⟩
  | .hbm, ⟨46, _⟩ => ⟨S8192000, .f32⟩
  | .hbm, ⟨47, _⟩ => ⟨S64000x128, .f32⟩
  | .hbm, ⟨48, _⟩ => ⟨S_, .i32⟩
  | .hbm, ⟨49, _⟩ => ⟨S_, .f32⟩
  | .hbm, ⟨50, _⟩ => ⟨S8192000, .f32⟩
  | .hbm, ⟨51, _⟩ => ⟨S64000x128, .f32⟩
  | .hbm, ⟨52, _⟩ => ⟨S_, .i32⟩
  | .hbm, ⟨53, _⟩ => ⟨S_, .f32⟩
  | .hbm, ⟨54, _⟩ => ⟨S8192000, .f32⟩
  | .hbm, ⟨55, _⟩ => ⟨S64000x128, .f32⟩
  | .hbm, ⟨56, _⟩ => ⟨S64000x128, .f32⟩
  | .hbm, ⟨57, _⟩ => ⟨S8192000, .f32⟩
  | .hbm, ⟨58, _⟩ => ⟨S8000000, .f32⟩
  | .hbm, ⟨59, _⟩ => ⟨S_, .f32⟩
  | .hbm, ⟨60, _⟩ => ⟨S1000000, .f32⟩
  | .hbm, ⟨61, _⟩ => ⟨S8000000x1, .i32⟩
  | .hbm, ⟨62, _⟩ => ⟨S1000000, .f32⟩
  | .hbm, ⟨63, _⟩ => ⟨S1000000, .f32⟩
  | .hbm, ⟨64, _⟩ => ⟨S1000000, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_call3_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000000 : S_.BroadcastsInDim S1000000 (![] : Fin 0 → Fin S1000000.rank)
  bcast_S_S8000000 : S_.BroadcastsInDim S8000000 (![] : Fin 0 → Fin S8000000.rank)
  bcast_S8000000_S8000000x1_0 : S8000000.BroadcastsInDim S8000000x1 (![0] : Fin 1 → Fin S8000000x1.rank)
  pads_S8000000_S8192000_01920000 : S8000000.Pads (![0] : Fin 1 → Nat) ![192000] ![0] S8192000
  h_S_ : 0 < S_.numel
  shapeCasts_S8192000_S64000x128 : S8192000.ShapeCasts S64000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S64000x128_S8192000 : S64000x128.ShapeCasts S8192000
  slices_S8192000_S8000000_0 : S8192000.Slices ![0] S8000000
  gather_S1000000_S8000000x1_S8000000_n_0_n_n_0_1_1_wf : GatherDims.WF S1000000 S8000000x1 S8000000 [] [0] [] [0] [] 1 ![1]
  scatter_S1000000_S8000000x1_S8000000_n_0_0_1_wf : ScatterDims.WF S1000000 S8000000x1 S8000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S64000x128.size a
  hwx0_0 : ∀ i : grid0.Coords, EltTy.bits .f32 = 32 ∨ (Rect.block (s := S64000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S64000x128.size a
  hwx0_1 : ∀ i : grid0.Coords, EltTy.bits .f32 = 32 ∨ (Rect.block (s := S64000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S64000x128.size a
  hwx0_2 : ∀ i : grid0.Coords, EltTy.bits .f32 = 32 ∨ (Rect.block (s := S64000x128) S8000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S64000x128.size a
  hwx0_3 : ∀ i : grid0.Coords, EltTy.bits .f32 = 32 ∨ (Rect.block (s := S64000x128) S8000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S64000x128.size a
  hwx0_4 : ∀ i : grid0.Coords, EltTy.bits .f32 = 32 ∨ (Rect.block (s := S64000x128) S8000x128.size (cc0_transform_4 i) (hinb0_4 i)).WholeWords (EltTy.packing .f32)

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf

abbrev win0_0 : Pipeline.Window sig grid0 :=
  Pipeline.Window.ofSpec (Memref.whole main_v26) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S8000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000 : Shape := ⟨1, ![1000000]⟩
abbrev S8000000 : Shape := ⟨1, ![8000000]⟩
abbrev S_ : Shape := ⟨0, ![]⟩
abbrev S8000000x1 : Shape := ⟨2, ![8000000, 1]⟩

abbrev nBuf : Space → Nat
  | .hbm => 76
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S8000000, .f32⟩
  | .hbm, ⟨5, _⟩ => ⟨S8000000, .i32⟩
  | .hbm, ⟨6, _⟩ => ⟨S8000000, .i32⟩
  | .hbm, ⟨7, _⟩ => ⟨S_, .f32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S8000000x1, .i32⟩
  | .hbm, ⟨16, _⟩ => ⟨S8000000, .f32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000, .f32⟩
  | .hbm, ⟨26, _⟩ => ⟨S8000000, .f32⟩
  | .hbm, ⟨27, _⟩ => ⟨S_, .f32⟩
  | .hbm, ⟨28, _⟩ => ⟨S8000000, .f32⟩
  | .hbm, ⟨29, _⟩ => ⟨S8000000, .f32⟩
  | .hbm, ⟨30, _⟩ => ⟨S_, .i32⟩
  | .hbm, ⟨31, _⟩ => ⟨S8000000, .i32⟩
  | .hbm, ⟨32, _⟩ => ⟨S8000000, .i1⟩
  | .hbm, ⟨33, _⟩ => ⟨S_, .i32⟩
  | .hbm, ⟨34, _⟩ => ⟨S8000000, .i32⟩
  | .hbm, ⟨35, _⟩ => ⟨S8000000, .i32⟩
  | .hbm, ⟨36, _⟩ => ⟨S8000000, .i32⟩
  | .hbm, ⟨37, _⟩ => ⟨S8000000x1, .i32⟩
  | .hbm, ⟨38, _⟩ => ⟨S8000000, .f32⟩
  | .hbm, ⟨39, _⟩ => ⟨S_, .i32⟩
  | .hbm, ⟨40, _⟩ => ⟨S8000000, .i32⟩
  | .hbm, ⟨41, _⟩ => ⟨S8000000, .i1⟩
  | .hbm, ⟨42, _⟩ => ⟨S_, .i32⟩
  | .hbm, ⟨43, _⟩ => ⟨S8000000, .i32⟩
  | .hbm, ⟨44, _⟩ => ⟨S8000000, .i32⟩
  | .hbm, ⟨45, _⟩ => ⟨S8000000, .i32⟩
  | .hbm, ⟨46, _⟩ => ⟨S8000000x1, .i32⟩
  | .hbm, ⟨47, _⟩ => ⟨S8000000, .f32⟩
  | .hbm, ⟨48, _⟩ => ⟨S8000000, .f32⟩
  | .hbm, ⟨49, _⟩ => ⟨S_, .f32⟩
  | .hbm, ⟨50, _⟩ => ⟨S8000000, .f32⟩
  | .hbm, ⟨51, _⟩ => ⟨S8000000, .f32⟩
  | .hbm, ⟨52, _⟩ => ⟨S_, .i32⟩
  | .hbm, ⟨53, _⟩ => ⟨S8000000, .i32⟩
  | .hbm, ⟨54, _⟩ => ⟨S8000000, .i1⟩
  | .hbm, ⟨55, _⟩ => ⟨S_, .i32⟩
  | .hbm, ⟨56, _⟩ => ⟨S8000000, .i32⟩
  | .hbm, ⟨57, _⟩ => ⟨S8000000, .i32⟩
  | .hbm, ⟨58, _⟩ => ⟨S8000000, .i32⟩
  | .hbm, ⟨59, _⟩ => ⟨S8000000x1, .i32⟩
  | .hbm, ⟨60, _⟩ => ⟨S8000000, .f32⟩
  | .hbm, ⟨61, _⟩ => ⟨S8000000, .f32⟩
  | .hbm, ⟨62, _⟩ => ⟨S8000000, .f32⟩
  | .hbm, ⟨63, _⟩ => ⟨S_, .f32⟩
  | .hbm, ⟨64, _⟩ => ⟨S8000000, .f32⟩
  | .hbm, ⟨65, _⟩ => ⟨S8000000, .f32⟩
  | .hbm, ⟨66, _⟩ => ⟨S8000000, .f32⟩
  | .hbm, ⟨67, _⟩ => ⟨S8000000, .f32⟩
  | .hbm, ⟨68, _⟩ => ⟨S8000000, .f32⟩
  | .hbm, ⟨69, _⟩ => ⟨S8000000, .f32⟩
  | .hbm, ⟨70, _⟩ => ⟨S8000000, .f32⟩
  | .hbm, ⟨71, _⟩ => ⟨S8000000, .f32⟩
  | .hbm, ⟨72, _⟩ => ⟨S_, .f32⟩
  | .hbm, ⟨73, _⟩ => ⟨S1000000, .f32⟩
  | .hbm, ⟨74, _⟩ => ⟨S8000000x1, .i32⟩
  | .hbm, ⟨75, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S1000000 : S_.BroadcastsInDim S1000000 (![] : Fin 0 → Fin S1000000.rank)
  gather_S1000000_S8000000x1_S8000000_n_0_n_n_0_1_1_wf : GatherDims.WF S1000000 S8000000x1 S8000000 [] [0] [] [0] [] 1 ![1]
  scatter_S1000000_S8000000x1_S8000000_n_0_0_1_wf : ScatterDims.WF S1000000 S8000000x1 S8000000 [] [0] [0] 1

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf

class Facts : Prop extends Facts₀ where

variable [Facts]
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibRealScale.lean ====
/-
  Real numbers among the extended reals.

  * An f32 word whose exponent field is not all ones (neither an infinity nor a NaN pattern) denotes a real number
    (`ofBits_real`) — so a program's finite literals never have to be evaluated to know they are real.
  * A real factor moves across a finite sum of real terms, whatever its sign (`pooled_scale`): for reals `p e` and `t`,
    `(z + ∑ e ∈ S, p e) * t = z + ∑ e ∈ S, p e * t` with `z = 0` the value the sum starts from. On the extended reals
    this fails when the sum meets both infinities, which is why the terms are asked to be real.
-/
import Idealize.ShloMosaic.PureOps.Ideal
import Idealize.ShloMosaic.PureOps.Ideal.Laws

noncomputable section

open scoped BigOperators

namespace Cert.Lib.RealScale

open Idealize.ShloMosaic

/-- An f32 word whose exponent field is not all ones denotes a real number. -/
theorem ofBits_real (b : BitVec 32) (h : (b.extractLsb' 23 8).toNat ≠ 255) :
    ∃ r : ℝ, Ideal.ofBits .f32 b = (r : EReal) := by
  unfold Ideal.ofBits Ideal.ieee
  simp only []
  rw [if_neg (by simpa using h)]
  split <;> exact ⟨_, rfl⟩

/-- A REAL FACTOR ACROSS A SUM OF REALS: for real terms `p e` and a real factor `t`,
    `(z + ∑ e ∈ S, p e) * t = z + ∑ e ∈ S, p e * t`, where `z` is the zero a running sum starts from. -/
theorem pooled_scale {ι : Type*} (S : Finset ι) (P : ι → EReal) (ts z : EReal) (hz : z = 0)
    (hP : ∀ e ∈ S, ∃ r : ℝ, P e = (r : EReal)) (hts : ∃ t : ℝ, ts = (t : EReal)) :
    (z + ∑ e ∈ S, P e) * ts = z + ∑ e ∈ S, P e * ts := by
  classical
  obtain ⟨t, rfl⟩ := hts
  subst hz
  rw [zero_add, zero_add]
  have key : ∀ (S' : Finset ι), S' ⊆ S → (∃ r : ℝ, ∑ e ∈ S', P e = (r : EReal)) ∧
      (∑ e ∈ S', P e) * (t : EReal) = ∑ e ∈ S', P e * (t : EReal) := by
    intro S'
    refine Finset.induction_on S' ?_ ?_
    · intro _; exact ⟨⟨0, by simp⟩, by simp⟩
    · intro a s ha ih hs
      obtain ⟨⟨r, hr⟩, ih2⟩ := ih (fun x hx => hs (Finset.mem_insert_of_mem hx))
      obtain ⟨q, hq⟩ := hP a (hs (Finset.mem_insert_self a s))
      rw [Finset.sum_insert ha, Finset.sum_insert ha, ← ih2, hr, hq]
      refine ⟨⟨q + r, by rw [EReal.coe_add]⟩, ?_⟩
      rw [← EReal.coe_add, ← EReal.coe_mul, ← EReal.coe_mul, ← EReal.coe_mul, ← EReal.coe_add, add_mul]
  exact (key S (Finset.Subset.refl S)).2

end Cert.Lib.RealScale

end
-- ==== Proof.EdgePower.lean ====
/-
  The heat one edge carries, and the pooling of edge values onto nodes, on the extended reals.

  An edge from a source node to a target node carries the power
      max (T_s - T_t, 0) * k * (1/2) * A_s * T_t^3 ,
  where T_s and T_t are the temperatures of its two ends, k its conductivity and A_s = L * D * pi * f the wetted
  area of its source node. The constants are kept as the words the two programs print (the same word on both sides),
  so their values never matter, only that they are real numbers.

  A node collects the energy of the edges that land on it: power times the time step. Summing the powers and
  scaling the sum by the time step once is the same as scaling every edge first, as long as every term is a real
  number (on the extended reals a factor does not move across a sum that meets both infinities); here only that
  the wetted area and the power of real data are real.
-/
import Idealize.ShloMosaic.PureOps.Ideal
import Idealize.ShloMosaic.PureOps.Ideal.Laws
import proofs.«163109_j1228360646896_2_alg».proof.Proof.LibRealOps
import proofs.«163109_j1228360646896_2_alg».proof.Proof.LibRealScale

noncomputable section

open scoped BigOperators

namespace Cert.Pool

open Idealize.ShloMosaic Cert.Lib.RealScale

/-- The wetted area of a node from its length, diameter and fill fraction: L * D * pi * f, grouped as printed. -/
def wetted (l d f : EReal) : EReal := l * d * Ideal.ofBits .f32 0x40490FDB#32 * f

/-- The power one edge carries, from its two end temperatures `a` (source) and `b` (target), the wetted area `w` of its
    source and its conductivity `c`, grouped as printed. -/
def edgePower (a b w c : EReal) : EReal :=
  max (a - b) (Ideal.ofBits .f32 0x00000000#32) * c * Ideal.ofBits .f32 0x3F000000#32 * w * (b * b * b)

/-- The wetted area of real data is a real. -/
theorem wetted_real (l d f : ℝ) : ∃ r : ℝ, wetted l d f = (r : EReal) := by
  obtain ⟨p, hp⟩ := ofBits_real 0x40490FDB#32 (by decide)
  exact ⟨l * d * p * f, by unfold wetted; rw [hp, ← EReal.coe_mul, ← EReal.coe_mul, ← EReal.coe_mul]⟩

/-- The power of an edge with real data is a real. -/
theorem edgePower_real (a b w c : ℝ) : ∃ r : ℝ, edgePower a b w c = (r : EReal) := by
  obtain ⟨h, hh⟩ := ofBits_real 0x3F000000#32 (by decide)
  refine ⟨max (a - b) 0 * c * h * w * (b * b * b), ?_⟩
  unfold edgePower
  rw [hh, Ideal.ofBits_zero_f32, ← EReal.coe_sub, ← EReal.coe_zero, ← ProofLib.RealOps.coe_max]
  simp only [← EReal.coe_mul]

end Cert.Pool

end
-- ==== Proof.Payload.lean ====
/-
  The kernel body's stored value, entry by entry.

  The body loads the four blocks of a grid point whole — source temperatures, target temperatures, conductivities and
  source wetted areas, each 8000 x 128 — and stores one block: at every entry the power that edge carries,
  `Cert.Pool.edgePower` of the four loaded entries. Every operation of the body acts entry by entry, and the shape
  casts between equal shapes move nothing.
-/
import proofs.«163109_j1228360646896_2_alg».proof.Proof.Gen.KernelIdeal.Skeleton
import proofs.«163109_j1228360646896_2_alg».proof.Proof.EdgePower
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The stored block as a function of the four loaded blocks: source temperature `ts`, target temperature `tt`,
    conductivity `k` and source wetted area `w` (the body's order of loads), entry by entry. -/
theorem stored_eq (ts tt k w : Vec Ideal S8000x128 .f32) :
    k0_pay1 (F := Ideal) ts tt k w = fun j => Cert.Pool.edgePower (ts j) (tt j) (w j) (k j) := by
  unfold k0_pay1
  simp only [shapeCast_self]
  rfl

end Cert.KernelIdeal.Body

end
-- ==== Proof.Blocks.lean ====
/-
  From blocks to the array: what the edge table holds when the grid has run.

  The grid has 8 points. Point `t` reads rows `8000 t … 8000 t + 7999` of each of the four 64000 x 128 input tables
  (all four move together) and writes the same rows of the output table. Since the body works entry by entry, what
  point `t` writes back is the block `t` of ONE function of the four whole tables,
      powerTable A B W K (r, l) = edgePower (A (r, l)) (B (r, l)) (W (r, l)) (K (r, l)),
  and the 8 blocks tile the 64000 rows (row `r` is in block `r / 8000`), so after the grid the output table IS that
  function.
-/
import proofs.«163109_j1228360646896_2_alg».proof.Proof.Gen.KernelIdeal.Frame
import proofs.«163109_j1228360646896_2_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem zero_offset : (![0, 0] : Fin 2 → Nat) = fun _ => 0 := funext fun a => by fin_cases a <;> rfl

/-- The table of edge powers from the four edge tables (source temperature, target temperature, source wetted area,
    conductivity), entry by entry. -/
def powerTable (A B W K : S64000x128.Idx → Elt Ideal .f32) : S64000x128.Idx → Elt Ideal .f32 :=
  fun i => Cert.Pool.edgePower (A i) (B i) (W i) (K i)

/-- The printed index maps, decided over the 8 points: the four input windows sit on the output window's block,
    whose row-block number is at most 7 and whose column-block number is 0. -/
theorem same_block : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = win0_4.index t (1 : Fin 2)
    ∧ win0_2.index t (0 : Fin 2) = win0_4.index t (0 : Fin 2)
    ∧ win0_2.index t (1 : Fin 2) = win0_4.index t (1 : Fin 2)
    ∧ win0_3.index t (0 : Fin 2) = win0_4.index t (0 : Fin 2)
    ∧ win0_3.index t (1 : Fin 2) = win0_4.index t (1 : Fin 2)
    ∧ win0_4.index t (0 : Fin 2) ≤ 7 ∧ win0_4.index t (1 : Fin 2) = 0 :=
  (by decide +kernel : ∀ t : Fin grid0.N, _)

/-- Every row block is some point's. -/
theorem block_onto : ∀ q : Fin 8, ∃ t : Fin cfg0.N, win0_4.index t = ![q.val, 0] :=
  (by decide +kernel : ∀ q : Fin 8, ∃ t : Fin grid0.N, win0_4.index t = ![q.val, 0])

/-- Input window 0's block at a point sits where the output window's does. -/
theorem emb_eq_0 (t : Fin cfg0.N) (j : ((cfg0.win 4).xblock (cfg0.grid.coords t)).Idx) :
    ((cfg0.win 0).blk t).view.emb j = ((cfg0.win 4).blk t).view.emb j := by
  obtain ⟨e0, e1, e2, e3, e4, e5, e6, e7, e8, e9⟩ := same_block t
  funext a; apply Fin.ext
  match a with
  | ⟨0, _⟩ => show win0_0.index t (0 : Fin 2) * 8000 + 1 * (j 0).val = win0_4.index t (0 : Fin 2) * 8000 + 1 * (j 0).val; omega
  | ⟨1, _⟩ => show win0_0.index t (1 : Fin 2) * 128 + 1 * (j 1).val = win0_4.index t (1 : Fin 2) * 128 + 1 * (j 1).val; omega

/-- Input window 1's block at a point sits where the output window's does. -/
theorem emb_eq_1 (t : Fin cfg0.N) (j : ((cfg0.win 4).xblock (cfg0.grid.coords t)).Idx) :
    ((cfg0.win 1).blk t).view.emb j = ((cfg0.win 4).blk t).view.emb j := by
  obtain ⟨e0, e1, e2, e3, e4, e5, e6, e7, e8, e9⟩ := same_block t
  funext a; apply Fin.ext
  match a with
  | ⟨0, _⟩ => show win0_1.index t (0 : Fin 2) * 8000 + 1 * (j 0).val = win0_4.index t (0 : Fin 2) * 8000 + 1 * (j 0).val; omega
  | ⟨1, _⟩ => show win0_1.index t (1 : Fin 2) * 128 + 1 * (j 1).val = win0_4.index t (1 : Fin 2) * 128 + 1 * (j 1).val; omega

/-- Input window 2's block at a point sits where the output window's does. -/
theorem emb_eq_2 (t : Fin cfg0.N) (j : ((cfg0.win 4).xblock (cfg0.grid.coords t)).Idx) :
    ((cfg0.win 2).blk t).view.emb j = ((cfg0.win 4).blk t).view.emb j := by
  obtain ⟨e0, e1, e2, e3, e4, e5, e6, e7, e8, e9⟩ := same_block t
  funext a; apply Fin.ext
  match a with
  | ⟨0, _⟩ => show win0_2.index t (0 : Fin 2) * 8000 + 1 * (j 0).val = win0_4.index t (0 : Fin 2) * 8000 + 1 * (j 0).val; omega
  | ⟨1, _⟩ => show win0_2.index t (1 : Fin 2) * 128 + 1 * (j 1).val = win0_4.index t (1 : Fin 2) * 128 + 1 * (j 1).val; omega

/-- Input window 3's block at a point sits where the output window's does. -/
theorem emb_eq_3 (t : Fin cfg0.N) (j : ((cfg0.win 4).xblock (cfg0.grid.coords t)).Idx) :
    ((cfg0.win 3).blk t).view.emb j = ((cfg0.win 4).blk t).view.emb j := by
  obtain ⟨e0, e1, e2, e3, e4, e5, e6, e7, e8, e9⟩ := same_block t
  funext a; apply Fin.ext
  match a with
  | ⟨0, _⟩ => show win0_3.index t (0 : Fin 2) * 8000 + 1 * (j 0).val = win0_4.index t (0 : Fin 2) * 8000 + 1 * (j 0).val; omega
  | ⟨1, _⟩ => show win0_3.index t (1 : Fin 2) * 128 + 1 * (j 1).val = win0_4.index t (1 : Fin 2) * 128 + 1 * (j 1).val; omega

set_option maxHeartbeats 1000000 in
/-- WHAT POINT `t` WRITES BACK is block `t` of the power table of the four input tables as the grid finds them. -/
theorem flushed_eq (c : Dev nD) (t : Fin cfg0.N) :
    (dats m 0 c).flushed 4 t = ((cfg0.win 4).blk t).view.read (Elt Ideal)
      (powerTable (V m c main_v26) (V m c main_v28) (V m c main_v30) (V m c main_v32)) := by
  show (cfg0.win 4).cut (grid0.coords t) ((dats m 0 c).after 4 t) = _
  rw [after0_4]
  unfold out0_4
  rw [View.canon_unit_zero zero_offset]
  simp only [View.ld_unit_zero (S := S8000x128) zero_offset]
  rw [Cert.KernelIdeal.Body.stored_eq]
  funext j
  show Cert.Pool.edgePower (V m c main_v26 (((cfg0.win 0).blk t).view.emb j)) (V m c main_v28 (((cfg0.win 1).blk t).view.emb j))
      (V m c main_v30 (((cfg0.win 2).blk t).view.emb j)) (V m c main_v32 (((cfg0.win 3).blk t).view.emb j))
    = Cert.Pool.edgePower (V m c main_v26 (((cfg0.win 4).blk t).view.emb j)) (V m c main_v28 (((cfg0.win 4).blk t).view.emb j))
      (V m c main_v30 (((cfg0.win 4).blk t).view.emb j)) (V m c main_v32 (((cfg0.win 4).blk t).view.emb j))
  rw [emb_eq_0 t j, emb_eq_1 t j, emb_eq_2 t j, emb_eq_3 t j]

/-- A table entry is in point `t`'s block iff each coordinate is in the block's range on its axis. -/
theorem mem_blk (t : Fin cfg0.N) (i : S64000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v33).slice (win0_4.rect t)).set ↔ _
  rw [View.set_slice_whole, Rect.mem_set_unit]
  exact Iff.rfl

/-- The 8 blocks cover the table: entry `(r, l)` is in the block of the point whose row block is `r / 8000`. -/
theorem covered (i : S64000x128.Idx) :
    ∃ t : Fin cfg0.N, (cfg0.win 4).flush t = true ∧ i ∈ ((cfg0.win 4).blk t).view.set := by
  have hi0 : (i 0).val < 64000 := (i 0).isLt
  have hi1 : (i 1).val < 128 := (i 1).isLt
  obtain ⟨t, ht⟩ := block_onto ⟨(i 0).val / 8000, by omega⟩
  have q0 : win0_4.index t (0 : Fin 2) = (i 0).val / 8000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 128 ≤ (i 1).val ∧ (i 1).val < win0_4.index t (1 : Fin 2) * 128 + 128; omega

/-- THE OUTPUT TABLE after the grid is the power table of the four input tables. -/
theorem table_eq (c : Dev nD) : (dats m 0 c).arrAt 4 cfg0.N
    = powerTable (V m c main_v26) (V m c main_v28) (V m c main_v30) (V m c main_v32) :=
  (dats m 0 c).arrAt_eq_of_cover 4 _ (fun t _ => flushed_eq m c t) covered

end Cert.KernelIdeal.Blocks

end
-- ==== Proof.Entry.lean ====
/-
  What the grid finds in its four input tables.

  Before the grid the program builds four edge vectors of 8000000 entries — the source temperatures `T[src]`, the
  target temperatures `T[tgt]`, the source wetted areas `(L * D * pi * f)[src]` and the conductivities —, pads each
  at its far end to 8192000 entries and re-reads it as a 64000 x 128 table (`gridTable`). An index word goes through
  the usual wrap of a negative index before the gather (`wrapCol`).
-/
import proofs.«163109_j1228360646896_2_alg».proof.Proof.Gen.KernelIdeal.Frame
import Idealize.ShloMosaic.Lib.StableHlo.Run
import Idealize.ShloMosaic.PureOps.Ideal
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- An edge vector laid out for the grid: padded at its far end to 8192000 entries (with the number the integer 0
    converts to), then re-read as 64000 rows of 128. -/
def gridTable (x : FVec Ideal S8000000 .f32) : FVec Ideal S64000x128 .f32 :=
  shapeCast S64000x128
    (pad S8192000 ![0] ![192000] ![0] x (sitofp (F := Ideal) .f32 (constantI S_ 32 0#32)) pads_S8000000_S8192000_01920000 h_S_)
    shapeCasts_S8192000_S64000x128

/-- The index column a gather reads with: a negative word has the table length added, and the vector becomes a column. -/
def wrapCol (ix : IVec S8000000 32) : IVec S8000000x1 32 :=
  broadcastInDim S8000000x1 ![0] bcast_S8000000_S8000000x1_0
    (select (cmpi .slt ix (broadcastInDim S8000000 ![] bcast_S_S8000000 (constantI S_ 32 0#32)))
      (addi ix (broadcastInDim S8000000 ![] bcast_S_S8000000 (constantI S_ 32 1000000#32))) ix)

/-- The wetted area of every node, `L * D * pi * f`, as the program computes it once per node. -/
def wettedNodes (L D Fl : FVec Ideal S1000000 .f32) : FVec Ideal S1000000 .f32 :=
  mulf (mulf (mulf L D) (broadcastInDim S1000000 ![] bcast_S_S1000000 (constant (F := Ideal) S_ .f32 0x40490FDB#32))) Fl

set_option maxHeartbeats 4000000 in
/-- Table 0: the source temperatures. -/
theorem srcTemps (c : Dev nD) : V m c main_v26 = gridTable
    (Host.gather gather_S1000000_S8000000x1_S8000000_n_0_n_n_0_1_1 (m ((c : Thread nD τ).loc main_arg0))
      (wrapCol (m ((c : Thread nD τ).loc main_arg5)))) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- Table 1: the target temperatures. -/
theorem tgtTemps (c : Dev nD) : V m c main_v28 = gridTable
    (Host.gather gather_S1000000_S8000000x1_S8000000_n_0_n_n_0_1_1 (m ((c : Thread nD τ).loc main_arg0))
      (wrapCol (m ((c : Thread nD τ).loc main_arg6)))) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- Table 2: the source wetted areas. -/
theorem srcWetted (c : Dev nD) : V m c main_v30 = gridTable
    (Host.gather gather_S1000000_S8000000x1_S8000000_n_0_n_n_0_1_1
      (wettedNodes (m ((c : Thread nD τ).loc main_arg1)) (m ((c : Thread nD τ).loc main_arg2)) (m ((c : Thread nD τ).loc main_arg3)))
      (wrapCol (m ((c : Thread nD τ).loc main_arg5)))) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- Table 3: the conductivities. -/
theorem conductivities (c : Dev nD) : V m c main_v32 = gridTable (m ((c : Thread nD τ).loc main_arg4)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Entry

end
-- ==== Proof.Tail.lean ====
/-
  After the grid: from the output table to the pooled result.

  The lines after the grid re-read the 64000 x 128 output table as a vector of 8192000 entries, keep its first
  8000000 (one per edge), add each entry onto the node its target index names, starting from zero, and scale every
  node's total by the time step. Here that chain is read back from the program's last lines, with the output table
  at what the grid left in it and the argument buffers at their launch contents.
-/
import proofs.«163109_j1228360646896_2_alg».proof.Proof.Gen.KernelIdeal.Frame
import Idealize.ShloMosaic.Lib.StableHlo.Run
import Idealize.ShloMosaic.PureOps.Ideal
import Idealize.ShloMosaic.Lib.Pipeline.Value

noncomputable section

namespace Cert.KernelIdeal.Tail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The pooled result from an output table `O`, the target indices `tgt` and the time step `ts`: the table as a
    vector, its first 8000000 entries added onto their target nodes from zero, every total times the time step. -/
def pooled (O : FVec Ideal S64000x128 .f32) (tgt : IVec S8000000 32) (ts : FVec Ideal S_ .f32) : FVec Ideal S1000000 .f32 :=
  mulf
    (Host.scatterAdd scatter_S1000000_S8000000x1_S8000000_n_0_0_1
      (broadcastInDim S1000000 ![] bcast_S_S1000000 (constant (F := Ideal) S_ .f32 0x00000000#32))
      (broadcastInDim S8000000x1 ![0] bcast_S8000000_S8000000x1_0 tgt)
      (extractStridedSlice S8000000 ![0] (shapeCast S8192000 O shapeCasts_S64000x128_S8192000) slices_S8192000_S8000000_0))
    (broadcastInDim S1000000 ![] bcast_S_S1000000 ts)

set_option maxHeartbeats 4000000 in
/-- The program's result buffer after its last lines is `pooled` of what the grid left in the output table. -/
theorem result_eq (c : Dev nD) :
    Pipeline.afterTail₀ cfgs (dats m) 0 (V0 m) [hostOps1] c main_v40
      = pooled ((dats m 0 c).arrAt 4 cfg0.N) (m ((c : Thread nD τ).loc main_arg6)) (m ((c : Thread nD τ).loc main_arg7)) := by
  have e33 : Pipeline.withArrays (cfgs 0).spec c (V0 m c) (fun w => (dats m 0 c).arrAt w (cfgs 0).N) (Proc.devRef .tc main_v33)
      = (dats m 0 c).arrAt 4 cfg0.N := Pipeline.withArrays_arr spec0 launch0.win.arr_inj c _ _ 4
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne spec0 c _ _ main_arg6 (by decide)).trans (V_main_arg6 m c)
  have e7 : Pipeline.withArrays (cfgs 0).spec c (V0 m c) (fun w => (dats m 0 c).arrAt w (cfgs 0).N) (Proc.devRef .tc main_arg7)
      = m ((c : Thread nD τ).loc main_arg7) :=
    (Pipeline.withArrays_of_ne spec0 c _ _ main_arg7 (by decide)).trans (V_main_arg7 m c)
  unfold Pipeline.afterTail₀
  show StableHlo.after hostOps1 _ (Proc.devRef .tc main_v40) = _
  after_results
  rw [e33, e6, e7]
  rfl

end Cert.KernelIdeal.Tail

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«163109_j1228360646896_2_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«163109_j1228360646896_2_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.Pooling.lean ====
/-
  The value of an edge from the node tables, and the pooled energies.

  The node tables `T`, `L`, `D`, `Fl` have 1000000 entries, the edge table `K` has 8000000. An edge `e` reads its
  source node through the index column `cS` and its target node through `cT` (a gather takes the word, read signed,
  clamped into the table). Its power is `edgePower` of the two temperatures, the source's wetted area and its own
  conductivity. With every table entry real and a real time step, the pooled power of any set of edges scaled by the
  time step is the sum of the edges' energies.
-/
import proofs.«163109_j1228360646896_2_alg».proof.Proof.EdgePower
import proofs.«163109_j1228360646896_2_alg».proof.Proof.LibGather1
import proofs.«163109_j1228360646896_2_alg».proof.Proof.LibScatter1

noncomputable section

open scoped BigOperators

namespace Cert.Pool

open Idealize.ShloMosaic Idealize.ShloMosaic.ValueIdx Cert.Lib.RowScatter Cert.Lib.RealScale

section
variable (T L D Fl : (⟨1, ![1000000]⟩ : Shape).Idx → EReal) (K : (⟨1, ![8000000]⟩ : Shape).Idx → EReal)
  (cS cT : IVec ⟨2, ![8000000, 1]⟩ 32)

/-- The node an edge reads through an index column. -/
abbrev nodeOf (col : IVec ⟨2, ![8000000, 1]⟩ 32) (e : Fin 8000000) : (⟨1, ![1000000]⟩ : Shape).Idx :=
  ix1 (gatherRow 1000000 (by decide) col e)

/-- The power edge `e` carries, from the node tables and the edge's conductivity. -/
def edgeValue (e : Fin 8000000) : EReal :=
  edgePower (T (nodeOf cS e)) (T (nodeOf cT e)) (wetted (L (nodeOf cS e)) (D (nodeOf cS e)) (Fl (nodeOf cS e))) (K (ix1 e))

/-- With real tables, an edge's power is a real. -/
theorem edgeValue_real (hT : ∀ i, ∃ r : ℝ, T i = (r : EReal)) (hL : ∀ i, ∃ r : ℝ, L i = (r : EReal))
    (hD : ∀ i, ∃ r : ℝ, D i = (r : EReal)) (hF : ∀ i, ∃ r : ℝ, Fl i = (r : EReal)) (hK : ∀ i, ∃ r : ℝ, K i = (r : EReal))
    (e : Fin 8000000) : ∃ r : ℝ, edgeValue T L D Fl K cS cT e = (r : EReal) := by
  obtain ⟨a, ha⟩ := hT (nodeOf cS e)
  obtain ⟨b, hb⟩ := hT (nodeOf cT e)
  obtain ⟨l, hl⟩ := hL (nodeOf cS e)
  obtain ⟨d, hd⟩ := hD (nodeOf cS e)
  obtain ⟨f, hf⟩ := hF (nodeOf cS e)
  obtain ⟨k, hk⟩ := hK (ix1 e)
  obtain ⟨w, hw⟩ := wetted_real l d f
  unfold edgeValue
  rw [ha, hb, hl, hd, hf, hk, hw]
  exact edgePower_real a b w k

/-- POOLED: with real tables and a real time step `ts`, for any set `S` of edges, the pooled power scaled by the time
    step is the pooled energies (`z` is the zero the pooling starts from). -/
theorem pooled_eq (hT : ∀ i, ∃ r : ℝ, T i = (r : EReal)) (hL : ∀ i, ∃ r : ℝ, L i = (r : EReal))
    (hD : ∀ i, ∃ r : ℝ, D i = (r : EReal)) (hF : ∀ i, ∃ r : ℝ, Fl i = (r : EReal)) (hK : ∀ i, ∃ r : ℝ, K i = (r : EReal))
    (ts z : EReal) (hts : ∃ t : ℝ, ts = (t : EReal)) (hz : z = 0) (S : Finset (Fin 8000000)) :
    (z + ∑ e ∈ S, edgeValue T L D Fl K cS cT e) * ts = z + ∑ e ∈ S, edgeValue T L D Fl K cS cT e * ts :=
  pooled_scale S _ ts z hz (fun e _ => edgeValue_real T L D Fl K cS cT hT hL hD hF hK e) hts

end

end Cert.Pool

end
-- ==== Proof.LibPadTail.lean ====
/-
  A padding that only lengthens the last axis at its far end, read at an entry of the original array.

  Zero-padding a weight matrix's columns, or a bias vector, up to a whole number of column tiles adds entries
  past the original extent and moves none: on every axis the low padding is zero and there is no interior
  padding, so the padded array at an index whose last coordinate is below the original extent is the original
  array at the same coordinates. Stated for a matrix padded along its columns and for a vector.
-/
import Idealize.ShloMosaic.Lib.ValueIdx
import Idealize.ShloMosaic.Lib.KernelVsHost

noncomputable section

namespace Cert.Lib.PadTail

open Idealize.ShloMosaic Idealize.ShloMosaic.ValueIdx

variable {α : Type}

/-- A matrix with `B` columns padded to `T` columns: entry `(p, q)` with `q` below `B` is the matrix's entry `(p, q)`. -/
theorem pad_cols_apply {A B T hi : Nat} (x : (⟨2, ![A, B]⟩ : Shape).Idx → α) {u : Shape} (v : u.Idx → α)
    (hp : (⟨2, ![A, B]⟩ : Shape).Pads ![0, 0] ![0, hi] ![0, 0] ⟨2, ![A, T]⟩) (hu : 0 < u.numel)
    (p : Fin A) (q : Fin T) (q' : Fin B) (hq : q'.val = q.val) :
    pad ⟨2, ![A, T]⟩ ![0, 0] ![0, hi] ![0, 0] x v hp hu (ix2 p q) = x (ix2 p q') :=
  pad_apply_of_inside _ _ _ x v hp hu (ix2 p q) (ix2 p q') fun a => by
    match a with
    | ⟨0, _⟩ => show p.val = 0 + p.val * (0 + 1); omega
    | ⟨1, _⟩ => show q.val = 0 + q'.val * (0 + 1); omega

/-- A vector of length `B` padded to length `T`: entry `q` below `B` is the vector's entry `q`. -/
theorem pad_vec_apply {B T hi : Nat} (x : (⟨1, ![B]⟩ : Shape).Idx → α) {u : Shape} (v : u.Idx → α)
    (hp : (⟨1, ![B]⟩ : Shape).Pads ![0] ![hi] ![0] ⟨1, ![T]⟩) (hu : 0 < u.numel)
    (q : Fin T) (q' : Fin B) (hq : q'.val = q.val) :
    pad ⟨1, ![T]⟩ ![0] ![hi] ![0] x v hp hu (ix1 q) = x (ix1 q') :=
  pad_apply_of_inside _ _ _ x v hp hu (ix1 q) (ix1 q') fun a => by
    match a with
    | ⟨0, _⟩ => show q.val = 0 + q'.val * (0 + 1); omega

end Cert.Lib.PadTail

end
-- ==== Proof.KernelValue.lean ====
/-
  The kernel program's result, node by node.

  Undoing the grid layout: a grid table re-read as a vector is the padded vector, whose first 8000000 entries are the
  edge vector's. So the kept part of the output table holds, at edge `e`, the power of edge `e` computed from the
  gathered node values — `Cert.Pool.edgeValue` —, and node `n` of the result is
      (0 + ∑ over the edges e whose target word is n, edgeValue e) * time step.
-/
import proofs.«163109_j1228360646896_2_alg».proof.Proof.Blocks
import proofs.«163109_j1228360646896_2_alg».proof.Proof.Entry
import proofs.«163109_j1228360646896_2_alg».proof.Proof.Tail
import proofs.«163109_j1228360646896_2_alg».proof.Proof.Pooling
import proofs.«163109_j1228360646896_2_alg».proof.Proof.LibPadTail

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.Pool Cert.Lib.RowScatter
open Cert.KernelIdeal.Entry Cert.KernelIdeal.Blocks Cert.KernelIdeal.Tail

/-- A grid table re-read as a vector is the padded edge vector. -/
theorem flat_gridTable (x : FVec Ideal S8000000 .f32) :
    shapeCast S8192000 (gridTable x) shapeCasts_S64000x128_S8192000
      = pad S8192000 ![0] ![192000] ![0] x (sitofp (F := Ideal) .f32 (constantI S_ 32 0#32)) pads_S8000000_S8192000_01920000 h_S_ :=
  shapeCast_shapeCast _ _ _

/-- Entry `e` (below 8000000) of a grid table read as a vector is entry `e` of the edge vector. -/
theorem gridTable_entry (x : FVec Ideal S8000000 .f32) (e : Fin 8000000) (e' : Fin 8192000) (he : e.val = e'.val) :
    shapeCast S8192000 (gridTable x) shapeCasts_S64000x128_S8192000 (ix1 e') = x (ix1 e) := by
  rw [flat_gridTable]
  exact Cert.Lib.PadTail.pad_vec_apply x _ pads_S8000000_S8192000_01920000 h_S_ e' e he

/-- The kept part of the output table at edge `e`: the edge's power from the four edge vectors. -/
theorem kept_entry (a b w k : FVec Ideal S8000000 .f32) (e : Fin 8000000) :
    extractStridedSlice S8000000 ![0]
        (shapeCast S8192000 (powerTable (gridTable a) (gridTable b) (gridTable w) (gridTable k)) shapeCasts_S64000x128_S8192000)
        slices_S8192000_S8000000_0 (ix1 e)
      = edgePower (a (ix1 e)) (b (ix1 e)) (w (ix1 e)) (k (ix1 e)) := by
  have he : e.val < 8192000 := by have := e.isLt; omega
  refine (extractStridedSlice_apply _ _ slices_S8192000_S8000000_0 (ix1 e) (ix1 ⟨e.val, he⟩) (fun a => ?_)).trans ?_
  · match a with
    | ⟨0, _⟩ => show e.val = 0 + e.val; omega
  · show edgePower (shapeCast S8192000 (gridTable a) shapeCasts_S64000x128_S8192000 (ix1 ⟨e.val, he⟩))
        (shapeCast S8192000 (gridTable b) shapeCasts_S64000x128_S8192000 (ix1 ⟨e.val, he⟩))
        (shapeCast S8192000 (gridTable w) shapeCasts_S64000x128_S8192000 (ix1 ⟨e.val, he⟩))
        (shapeCast S8192000 (gridTable k) shapeCasts_S64000x128_S8192000 (ix1 ⟨e.val, he⟩)) = _
    rw [gridTable_entry a e ⟨e.val, he⟩ rfl, gridTable_entry b e ⟨e.val, he⟩ rfl, gridTable_entry w e ⟨e.val, he⟩ rfl,
      gridTable_entry k e ⟨e.val, he⟩ rfl]

/-- A node-table gather read at edge `e`. -/
theorem gathered (x : FVec Ideal S1000000 .f32) (col : IVec S8000000x1 32) (e : Fin 8000000) :
    Host.gather gather_S1000000_S8000000x1_S8000000_n_0_n_n_0_1_1 x col (ix1 e) = x (nodeOf col e) :=
  Cert.Lib.Gather1.gather1_apply (by decide) gather_S1000000_S8000000x1_S8000000_n_0_n_n_0_1_1.wf x col e

/-- NODE `n` OF THE RESULT: the pooled power of the edges landing on `n`, times the time step. -/
theorem pooled_entry (T L D Fl : FVec Ideal S1000000 .f32) (K : FVec Ideal S8000000 .f32) (src tgt : IVec S8000000 32)
    (ts : FVec Ideal S_ .f32) (n : Fin 1000000) :
    pooled (powerTable (gridTable (Host.gather gather_S1000000_S8000000x1_S8000000_n_0_n_n_0_1_1 T (wrapCol src)))
          (gridTable (Host.gather gather_S1000000_S8000000x1_S8000000_n_0_n_n_0_1_1 T (wrapCol tgt)))
          (gridTable (Host.gather gather_S1000000_S8000000x1_S8000000_n_0_n_n_0_1_1 (wettedNodes L D Fl) (wrapCol src)))
          (gridTable K)) tgt ts (ix1 n)
      = (0 + ∑ e ∈ landsOn (broadcastInDim S8000000x1 ![0] bcast_S8000000_S8000000x1_0 tgt) 1000000 n,
            edgeValue T L D Fl K (wrapCol src) (wrapCol tgt) e) * ts ix0 := by
  unfold pooled
  rw [mulf_apply, show broadcastInDim S1000000 ![] bcast_S_S1000000 ts (ix1 n) = ts ix0 from
    broadcastInDim_apply _ bcast_S_S1000000 ts (ix1 n) ix0 (fun a => a.elim0)]
  refine congrArg (· * ts ix0) ?_
  refine (Cert.Lib.Scatter1.scatterAdd1_apply scatter_S1000000_S8000000x1_S8000000_n_0_0_1.wf _ _ _ n).trans ?_
  refine congrArg₂ (· + ·) ?_ (Finset.sum_congr rfl fun e _ => ?_)
  · exact (broadcastInDim_apply _ bcast_S_S1000000 _ (ix1 n) ix0 (fun a => a.elim0)).trans Ideal.ofBits_zero_f32
  · rw [kept_entry, gathered, gathered, gathered]
    rfl

end Cert.KernelIdeal.Result

end
-- ==== Proof.KernelRun.lean ====
/-
  The kernel program's run with its result named.

  Every weakly fair execution of the program ends, with the result buffer at `kernelResult` — the pooled result of the
  power table of the four edge tables built from the launch contents — and the eight arguments as launched. The run
  itself is the generated frame run; the result is read from its post: the last lines applied to what the grid left
  (`Tail.result_eq`), the grid's output table (`Blocks.table_eq`), and the four tables the grid found
  (`Entry`).
-/
import proofs.«163109_j1228360646896_2_alg».proof.Proof.KernelValue

noncomputable section

namespace Cert.KernelIdeal.Result

open Cert.KernelIdeal Cert.KernelIdeal.Gen Idealize.ShloMosaic Idealize.ShloMosaic.TcCoe Idealize.SL.Sem
open Cert.KernelIdeal.Entry Cert.KernelIdeal.Blocks Cert.KernelIdeal.Tail

/-- The result as a function of the eight inputs. -/
def resultOf (T L D Fl : FVec Ideal S1000000 .f32) (K : FVec Ideal S8000000 .f32) (src tgt : IVec S8000000 32)
    (ts : FVec Ideal S_ .f32) : FVec Ideal S1000000 .f32 :=
  pooled (powerTable (gridTable (Host.gather gather_S1000000_S8000000x1_S8000000_n_0_n_n_0_1_1 T (wrapCol src)))
      (gridTable (Host.gather gather_S1000000_S8000000x1_S8000000_n_0_n_n_0_1_1 T (wrapCol tgt)))
      (gridTable (Host.gather gather_S1000000_S8000000x1_S8000000_n_0_n_n_0_1_1 (wettedNodes L D Fl) (wrapCol src)))
      (gridTable K)) tgt ts

variable (m : (ℓ : Loc nD τ sig) → Buf (Elt Ideal) ℓ) (ρ : Dev nD → PrngReg)

/-- The result of the program launched from memory `m`, on core `c`. -/
def kernelResult (c : Dev nD) : Buf (Elt Ideal) ((c : Thread nD τ).loc main_v40) :=
  resultOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the last lines leave in the result buffer is `kernelResult`. -/
theorem tail_result (c : Dev nD) :
    Pipeline.afterTail₀ cfgs (dats m) 0 (V0 m) [hostOps1] c main_v40 = kernelResult m c := by
  rw [result_eq, table_eq, srcTemps, tgtTemps, srcWetted, conductivities]
  rfl

/-- THE RUN: every weakly fair execution terminates with the result buffer at `kernelResult` and the arguments unchanged. -/
theorem run : θ_run defs (onTc (τ := τ) (main (F := Ideal))) ⟨m, fun _ => 0, ρ⟩ fun r => ∀ c : Dev nD,
      r.2.mem ((c.tc : Thread nD τ).loc main_v40) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v40 (Pipeline.mem_restRefs_of main_v40 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Result

end
-- ==== Proof.RefValue.lean ====
/-
  The reference program's result, node by node.

  The reference gathers the five node values of every edge, computes the edge's power, scales it by the time step and
  adds the energies onto the target nodes from zero. Entry by entry its operations are those of
  `Cert.Pool.edgeValue`: node `n` of the result is
      0 + ∑ over the edges e whose target word is n, edgeValue e * time step.
  All three source gathers read through the same wrapped index column, so the three factors of the wetted area are
  taken at one node.
-/
import proofs.«163109_j1228360646896_2_alg».proof.Proof.Gen.ReferenceIdeal.Read
import proofs.«163109_j1228360646896_2_alg».proof.Proof.Pooling

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Pool Cert.Lib.RowScatter

/-- A node-table gather read at edge `e`. -/
theorem gathered (x : FVec Ideal S1000000 .f32) (col : IVec S8000000x1 32) (e : Fin 8000000) :
    Host.gather gather_S1000000_S8000000x1_S8000000_n_0_n_n_0_1_1 x col (ix1 e) = x (nodeOf col e) :=
  Cert.Lib.Gather1.gather1_apply (by decide) gather_S1000000_S8000000x1_S8000000_n_0_n_n_0_1_1.wf x col e

/-- The energy the reference computes for edge `e`: the edge's power times the time step. -/
theorem edge_energy (x0 x1 x2 x3 : FVec Ideal S1000000 .f32) (x4 : FVec Ideal S8000000 .f32) (x5 x6 : IVec S8000000 32)
    (x7 : FVec Ideal S_ .f32) (e : Fin 8000000) :
    val_main_v49 (F := Ideal) x0 x1 x2 x3 x4 x5 x6 x7 (ix1 e)
      = edgeValue x0 x1 x2 x3 x4 (val_main_v5 (F := Ideal) x5) (val_main_v12 (F := Ideal) x6) e * x7 ix0 := by
  rw [val_main_v49_apply, val_main_v48_apply, val_main_v47_apply, val_main_v44_apply, val_main_v43_apply, val_main_v42_apply,
    val_main_v41_apply, val_main_v15_apply, val_main_call0_v0_apply, val_main_v14_apply, val_main_v46_apply, val_main_v45_apply,
    val_main_v40_apply, val_main_v32_apply, val_main_v31_apply, val_main_v30_apply]
  unfold val_main_v6 val_main_v13 val_main_v22 val_main_v29 val_main_v39
  rw [gathered, gathered, gathered, gathered, gathered]
  rfl

/-- NODE `n` OF THE REFERENCE'S RESULT: the pooled energies of the edges landing on `n`. -/
theorem pooled_entry (x0 x1 x2 x3 : FVec Ideal S1000000 .f32) (x4 : FVec Ideal S8000000 .f32) (x5 x6 : IVec S8000000 32)
    (x7 : FVec Ideal S_ .f32) (n : Fin 1000000) :
    val_main_v52 (F := Ideal) x0 x1 x2 x3 x4 x5 x6 x7 (ix1 n)
      = 0 + ∑ e ∈ landsOn (val_main_v51 (F := Ideal) x6) 1000000 n, edgeValue x0 x1 x2 x3 x4 (val_main_v5 (F := Ideal) x5) (val_main_v12 (F := Ideal) x6) e * x7 ix0 := by
  unfold val_main_v52
  refine (Cert.Lib.Scatter1.scatterAdd1_apply scatter_S1000000_S8000000x1_S8000000_n_0_0_1.wf _ _ _ n).trans ?_
  refine congrArg₂ (· + ·) ?_ (Finset.sum_congr rfl fun e _ => edge_energy x0 x1 x2 x3 x4 x5 x6 x7 e)
  exact (val_main_v50_apply (F := Ideal) (ix1 n)).trans Ideal.ofBits_zero_f32

end Cert.ReferenceIdeal.RefValue

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.FiniteInputs.lean ====
/-
  The precondition read back: every float input is made of real numbers.

  The precondition is a conjunction of six tests, one per float input, each `all (|x| < +inf)`. It holds (is the
  flag 1) exactly when each test does, and a test that holds says every entry of its array is a real number
  (neither infinity nor the junk value).
-/
import proofs.«163109_j1228360646896_2_alg».proof.Pre_finite_inputs
import proofs.«163109_j1228360646896_2_alg».proof.Proof.Gen.Pre_finite_inputs
import proofs.«163109_j1228360646896_2_alg».proof.Proof.LibFiniteEntry
import Idealize.ShloMosaic.Lib.ValueIdx

noncomputable section

namespace Cert.Pre_finite_inputs.Reals

open Cert.Pre_finite_inputs Idealize.ShloMosaic ProofLib.Finite

instance : Subsingleton S_.Idx := ⟨fun a b => funext fun d => d.elim0⟩

/-- If the precondition holds of the eight inputs, every entry of the six float inputs is a real number. -/
theorem all_real (a0 a1 a2 a3 : FVec Ideal S1000000 .f32) (a4 : FVec Ideal S8000000 .f32) (a5 a6 : IVec S8000000 32)
    (a7 : FVec Ideal S_ .f32) (h : fn (F := Ideal) a0 a1 a2 a3 a4 a5 a6 a7 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal))
      ∧ (∀ i, ∃ r : ℝ, (a4 i : EReal) = (r : EReal)) ∧ (∀ i, ∃ r : ℝ, (a7 i : EReal) = (r : EReal)) := by
  have h0 := congrFun h ValueIdx.ix0
  dsimp only [fn, fn_part1, andi] at h0
  obtain ⟨h0, t7⟩ := (andi_eq_one _ _).mp h0
  obtain ⟨h0, t4⟩ := (andi_eq_one _ _).mp h0
  obtain ⟨h0, t3⟩ := (andi_eq_one _ _).mp h0
  obtain ⟨h0, t2⟩ := (andi_eq_one _ _).mp h0
  obtain ⟨t0, t1⟩ := (andi_eq_one _ _).mp h0
  exact ⟨all_real_of_all_abs_lt_inf a0 _ (fun _ => rfl) _ _ _ _ t0,
    all_real_of_all_abs_lt_inf a1 _ (fun _ => rfl) _ _ _ _ t1,
    all_real_of_all_abs_lt_inf a2 _ (fun _ => rfl) _ _ _ _ t2,
    all_real_of_all_abs_lt_inf a3 _ (fun _ => rfl) _ _ _ _ t3,
    all_real_of_all_abs_lt_inf a4 _ (fun _ => rfl) _ _ _ _ t4,
    all_real_of_all_abs_lt_inf a7 _ (fun _ => rfl) _ _ _ _ t7⟩

end Cert.Pre_finite_inputs.Reals

end
-- ==== Proof.Agree.lean ====
/-
  The two results are one function of the inputs.

  Node `n` of the kernel program's result is `(0 + ∑ e, p e) * t` and node `n` of the reference's is
  `0 + ∑ e, p e * t`, both sums over the edges whose target word is `n` and with the same edge powers `p e`: the
  two programs wrap and gather through the same index columns. Under the precondition every input entry is a real
  number, so every `p e` and the time step `t` are reals, and the factor moves across the sum
  (`Cert.Pool.pooled_eq`).
-/
import proofs.«163109_j1228360646896_2_alg».proof.Proof.KernelRun
import proofs.«163109_j1228360646896_2_alg».proof.Proof.RefValue
import proofs.«163109_j1228360646896_2_alg».proof.Proof.FiniteInputs

noncomputable section

namespace Cert.Proof.Agree

open Idealize.ShloMosaic Idealize.ShloMosaic.ValueIdx Cert.Pool

/-- Under the precondition the reference's result is the kernel program's, as functions of the eight inputs. -/
theorem results_agree (T L D Fl : FVec Ideal ⟨1, ![1000000]⟩ .f32) (K : FVec Ideal ⟨1, ![8000000]⟩ .f32)
    (src tgt : IVec ⟨1, ![8000000]⟩ 32) (ts : FVec Ideal ⟨0, ![]⟩ .f32)
    (hpre : Cert.Pre_finite_inputs.fn (F := Ideal) T L D Fl K src tgt ts = fun _ => 1#1) :
    Cert.ReferenceIdeal.Read.val_main_v52 (F := Ideal) T L D Fl K src tgt ts
      = Cert.KernelIdeal.Result.resultOf T L D Fl K src tgt ts := by
  obtain ⟨hT, hL, hD, hF, hK, hts⟩ := Cert.Pre_finite_inputs.Reals.all_real T L D Fl K src tgt ts hpre
  funext i
  obtain ⟨n, rfl⟩ : ∃ n : Fin 1000000, i = ix1 n := ⟨i 0, eq_ix1 i⟩
  unfold Cert.KernelIdeal.Result.resultOf
  rw [Cert.ReferenceIdeal.RefValue.pooled_entry, Cert.KernelIdeal.Result.pooled_entry]
  exact (pooled_eq T L D Fl K _ _ hT hL hD hF hK (ts ix0) 0 (hts ix0) rfl _).symm

end Cert.Proof.Agree

end
-- ==== Proof.lean ====
/-
  Pooling the Kapitza heat flow of a graph's edges onto its nodes: the tiled program against the plain one.

  Both programs take node tables `T`, `L`, `D`, `f` (1000000 nodes), an edge table of conductivities and two index
  vectors `src`, `tgt` (8000000 edges) and a time step. Edge `e` carries the power
      p e = max (T[src e] - T[tgt e], 0) * k e * (1/2) * (L * D * pi * f)[src e] * T[tgt e]^3 ,
  and node `n` collects the energy of the edges whose target is `n`.

  The tiled program computes the wetted area `L * D * pi * f` once per node, gathers three edge vectors, lays each out
  as a 64000 x 128 table (padding 192000 entries that are cut away again afterwards), computes `p` on an 8-point grid of
  8000-row blocks, pools the powers and multiplies each node's total by the time step:   (0 + ∑ p e) * t.
  The plain program gathers five edge vectors, computes `p e * t` per edge and pools that:   0 + ∑ p e * t.
  The edge powers are the same terms on both sides (a gather of a product of node tables is the product of the
  gathers at the same node; the grid's blocks tile the table; padding and slicing cancel). What differs is where the
  time step multiplies, and on the extended reals that is the same only because, under the precondition, every input
  entry is a real number.

  The modules: `EdgePower` and `Pooling` (the arithmetic), `Payload`, `Blocks`, `Entry`, `Tail`, `KernelValue`,
  `KernelRun` (the tiled program's result), `RefValue` (the plain program's), `FiniteInputs` (the precondition),
  `Agree` (the two results are one function).
-/
import proofs.«163109_j1228360646896_2_alg».proof.Defs
import proofs.«163109_j1228360646896_2_alg».proof.Proof.Gen.Kernel
import proofs.«163109_j1228360646896_2_alg».proof.Proof.Gen.Kernel.Skeleton
import proofs.«163109_j1228360646896_2_alg».proof.Proof.Gen.Kernel.Launch
import proofs.«163109_j1228360646896_2_alg».proof.Proof.Gen.Kernel.Points
import proofs.«163109_j1228360646896_2_alg».proof.Proof.Gen.Kernel.Frame
import proofs.«163109_j1228360646896_2_alg».proof.Proof.Gen.KernelIdeal
import proofs.«163109_j1228360646896_2_alg».proof.Proof.Gen.KernelIdeal.Skeleton
import proofs.«163109_j1228360646896_2_alg».proof.Proof.Gen.KernelIdeal.Launch
import proofs.«163109_j1228360646896_2_alg».proof.Proof.Gen.KernelIdeal.Points
import proofs.«163109_j1228360646896_2_alg».proof.Proof.Gen.KernelIdeal.Frame
import proofs.«163109_j1228360646896_2_alg».proof.Proof.Gen.ReferenceIdeal
import proofs.«163109_j1228360646896_2_alg».proof.Proof.Gen.Pre_finite_inputs
import proofs.«163109_j1228360646896_2_alg».proof.Proof.Gen.ReferenceIdeal.Run
import proofs.«163109_j1228360646896_2_alg».proof.Proof.Gen.ReferenceIdeal.Read
import proofs.«163109_j1228360646896_2_alg».proof.Proof.Agree
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The plain program's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the eight inputs, under the precondition, the two programs end with the same result:
    the tiled program's at `kernelResult`, the plain program's at its composed term, which is the same function of the
    inputs (`Agree.results_agree`). -/
theorem algebraic : Cert.algebraic_KernelIdeal_ReferenceIdeal := by
  intro m ρ m' ρ' hpre hagree
  refine ⟨fun c => Cert.KernelIdeal.Result.kernelResult m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v52_eq, a0, a1, a2, a3, a4, a5, a6, a7]
  exact Cert.Proof.Agree.results_agree _ _ _ _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
